-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x4096 : Shape := ⟨3, ![64, 128, 4096]⟩
abbrev S_ : Shape := ⟨0, ![]⟩

class Facts : Prop where
  bcast_S_S64x128x4096 : S_.BroadcastsInDim S64x128x4096 (![] : Fin 0 → Fin S64x128x4096.rank)
  reducesTo_S64x128x4096_S_d0_1_2 : S64x128x4096.ReducesTo [0, 1, 2] S_
  h_S_ : 0 < S_.numel

variable [Facts]

def fn {F : FTy → Type} [FloatOps F] (main_arg0 : FVec F S64x128x4096 .f32) (main_arg1 : FVec F S64x128x4096 .f32) : IVec S_ 1 :=
  let main_v0 : FVec F S64x128x4096 .f32 := Host.absf main_arg0
  let main_cst : FVec F S_ .f32 := constant S_ .f32 0x7F800000#32
  let main_v1 : FVec F S64x128x4096 .f32 := broadcastInDim S64x128x4096 ![] bcast_S_S64x128x4096 main_cst
  let main_v2 : IVec S64x128x4096 1 := cmpf .olt main_v0 main_v1
  let main_c : IVec S_ 1 := constantI S_ 1 1#1
  let main_v3 : IVec S_ 1 := (fun x v => Host.reduce IntOp.andi x v reducesTo_S64x128x4096_S_d0_1_2 h_S_) main_v2 main_c
  let main_v4 : FVec F S64x128x4096 .f32 := Host.absf main_arg1
  let main_cst_0 : FVec F S_ .f32 := constant S_ .f32 0x7F800000#32
  let main_v5 : FVec F S64x128x4096 .f32 := broadcastInDim S64x128x4096 ![] bcast_S_S64x128x4096 main_cst_0
  let main_v6 : IVec S64x128x4096 1 := cmpf .olt main_v4 main_v5
  let main_c_1 : IVec S_ 1 := constantI S_ 1 1#1
  let main_v7 : IVec S_ 1 := (fun x v => Host.reduce IntOp.andi x v reducesTo_S64x128x4096_S_d0_1_2 h_S_) main_v6 main_c_1
  let main_v8 : IVec S_ 1 := andi main_v3 main_v7
  main_v8
-- ==== Kernel.lean ====
abbrev S64x128x4096 : Shape := ⟨3, ![64, 128, 4096]⟩
abbrev S8192x4096 : Shape := ⟨2, ![8192, 4096]⟩
abbrev S2x1x1 : Shape := ⟨3, ![2, 1, 1]⟩
abbrev S512x4096 : Shape := ⟨2, ![512, 4096]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S64x128x4096, .f32⟩
  | .hbm, ⟨1, _⟩ => ⟨S64x128x4096, .f32⟩
  | .hbm, ⟨2, _⟩ => ⟨S8192x4096, .f32⟩
  | .hbm, ⟨3, _⟩ => ⟨S8192x4096, .f32⟩
  | .hbm, ⟨4, _⟩ => ⟨S2x1x1, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S64x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x128x4096_S8192x4096 : S64x128x4096.ShapeCasts S8192x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x128x4096 : Shape := ⟨3, ![64, 128, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S64x128x4096, .f32⟩
  | .hbm, ⟨1, _⟩ => ⟨S64x128x4096, .f32⟩
  | .hbm, ⟨2, _⟩ => ⟨S64x128x4096, .f32⟩
  | .hbm, ⟨3, _⟩ => ⟨S64x128x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S64x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S64x128x4096_S_d0_1_2 : S64x128x4096.ReducesTo [0, 1, 2] S_
  h_S_ : 0 < S_.numel

variable [Facts₀]

class Facts : Prop extends Facts₀ where

variable [Facts]
-- ==== Proof.Pieces.lean ====
/-
  What one grid point leaves behind, read as values.

  The kernel keeps a one-element accumulator in scratch memory.  At a grid point it (first point of a core only)
  stores a zero there, then stores "accumulator + block sum", and (last point of a core only) copies the
  accumulator into the output block.  The three control cases are therefore
    first point of a core  : accumulator := step (zero),
    middle point           : accumulator := step (previous accumulator),
    last point of a core   : accumulator := step (previous accumulator), output := that accumulator re-shaped,
  where `step a = a + (sum of |x0 - x1| over the two input blocks)` is the body's one arithmetic payload.
  Each statement below says exactly this of the contents the run of the body was found to leave.
-/
import proofs.«158357_j6820408066429_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-2 access, as the constant function. -/
theorem hz2 : (![0, 0] : Fin 2 → Nat) = fun _ => 0 := funext fun a => by fin_cases a <;> rfl
/-- The zero offsets of a rank-3 access, as the constant function. -/
theorem hz3 : (![0, 0, 0] : Fin 3 → Nat) = fun _ => 0 := funext fun a => by fin_cases a <;> rfl

/-- A middle point leaves, in the accumulator holding `xs0`, one step from `xs0` over the two input blocks. -/
theorem sout_B (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S512x4096 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero (S := S1x1) hz2]
  simp only [View.readAt_eq_ld, h2.read_unread, h3.read_unread, h5.read_unread,
    View.ld_unit_zero (S := S512x4096) hz2, View.ld_unit_zero (S := S1x1) hz2]

/-- The first point of a core stores the zero, reads it back, and leaves one step from it. -/
theorem sout_A (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S512x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S512x4096) hz2]

/-- The last point of a core leaves in the accumulator one step from `xs0`, as a middle point does, … -/
theorem sout_C (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S512x4096 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) hz2]
  simp only [View.readAt_eq_ld, h2.read_unread, h3.read_unread, h5.read_unread,
    View.ld_unit_zero (S := S512x4096) hz2, View.ld_unit_zero (S := S1x1) hz2]

/-- … and in the output block that same accumulator, read back and re-shaped to the block's three axes. -/
theorem out_C (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S512x4096 .f32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x1x1) hz3, View.readCov_unit_zero (S := S1x1) _ hz2]
  simp only [View.readAt_eq_ld, h2.read_unread, h3.read_unread, h5.read_unread,
    View.ld_unit_zero (S := S512x4096) hz2, View.ld_unit_zero (S := S1x1) hz2]

end Cert.KernelIdeal.Pieces

end
-- ==== Proof.StepValue.lean ====
/-
  The body's arithmetic on the extended reals.

  One step of the accumulation adds to the accumulator the sum of |x0 - x1| over the two 512 x 4096 input
  blocks.  The body takes that sum in two stages, first along each row's 4096 lanes and then over the 512 row
  sums; a sum taken row by row is the sum over all entries, so the staging does not show in the value.  The zero
  the first point stores is the extended real 0, and the copy into the output block only renames the index.
-/
import proofs.«158357_j6820408066429_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open scoped BigOperators

namespace Cert.KernelIdeal.StepValue

open Cert.KernelIdeal Cert.KernelIdeal.Gen

/-- The sum of |x0 - x1| over one pair of input blocks. -/
def blockSum (x0 x1 : FVec Ideal S512x4096 .f32) : EReal :=
  ∑ y : S512x4096.Idx, FloatOps.absf (FloatOps.subf (x0 y) (x1 y))

/-- Row sums added up are the sum over all entries: each entry lies in exactly one row. -/
theorem sum_rows (v : FVec Ideal S512x4096 .f32) (h : S512x4096.Reduces [1] S512) :
    ∑ r : S512.Idx, Ideal.reduceAdd h v r = ∑ y : S512x4096.Idx, v y := by
  unfold Ideal.reduceAdd
  exact Finset.sum_fiberwise Finset.univ (fun y => h.drop y) v

/-- The zero the first point of a core stores is the extended real 0 at its one index. -/
theorem pay1_apply (j : S1x1.Idx) : k0_pay1 (F := Ideal) j = 0 := by
  unfold k0_pay1
  rw [shapeCast_self]
  exact Ideal.ofBits_zero_f32

/-- One step: the accumulator plus the block sum. -/
theorem pay2_apply (x0 x1 : FVec Ideal S512x4096 .f32) (xs : FVec Ideal S1x1 .f32) (j : S1x1.Idx) :
    k0_pay2 (F := Ideal) x0 x1 xs j = xs j + blockSum x0 x1 := by
  unfold k0_pay2
  simp only [shapeCast_self]
  show xs j + Ideal.reduceAdd _ (shapeCast S512x1 (Ideal.reduceAdd _ (absf (subf x0 x1))) _) (Shape.reshapeEquiv _ j) = _
  congr 1
  rw [Ideal.reduceAdd_total _ (fun b => by fin_cases b; rfl)]
  unfold shapeCast
  rw [Equiv.sum_comp (Shape.reshapeEquiv _) (fun r => Ideal.reduceAdd _ (absf (subf x0 x1)) r), sum_rows]
  rfl

/-- The accumulator's shape has one index. -/
theorem idx11_eq (a b : S1x1.Idx) : a = b := funext fun d => Fin.ext (by
  have h1 : S1x1.size d = 1 := by fin_cases d <;> rfl
  have ha := (a d).isLt
  have hb := (b d).isLt
  omega)

/-- The copy into the output block reads the accumulator's one entry. -/
theorem pay3_apply (xs : FVec Ideal S1x1 .f32) (j : S1x1x1.Idx) (k : S1x1.Idx) : k0_pay3 (F := Ideal) xs j = xs k := by
  unfold k0_pay3
  unfold shapeCast
  exact congrArg xs (idx11_eq _ _)

end Cert.KernelIdeal.StepValue

end
-- ==== Proof.SumLaw.lean ====
/-
  Regrouping finite sums in a commutative monoid.

  Addition on the extended reals is commutative and associative at every value, infinite ones included, so a
  finite sum may be taken in any grouping.  Three groupings are used: a sum over 8192 rows as sixteen
  consecutive blocks of 512 rows; a run of consecutive block sums grown one block at a time, restarted at every
  multiple of eight; and two such runs of eight blocks put side by side to make all sixteen.
-/
import Mathlib.Algebra.BigOperators.Intervals
import Mathlib.Algebra.BigOperators.Fin
import Mathlib.Logic.Equiv.Fin.Basic

open scoped BigOperators

namespace Cert.SumLaw

variable {M : Type*} [AddCommMonoid M]

/-- A sum over 8192 rows is the sum, over sixteen blocks, of the sums over each block's 512 consecutive rows. -/
theorem sum_rows_by_blocks (h : Fin 8192 → M) :
    ∑ p : Fin 8192, h p = ∑ t : Fin 16, ∑ r : Fin 512, h ⟨512 * t.val + r.val, by omega⟩ := by
  rw [← Equiv.sum_comp (finProdFinEquiv (m := 16) (n := 512)) h, Fintype.sum_prod_type]
  refine Finset.sum_congr rfl fun t _ => Finset.sum_congr rfl fun r _ => congrArg h (Fin.ext ?_)
  show r.val + 512 * t.val = 512 * t.val + r.val
  omega

/-- The run of block sums that restarts at every multiple of eight, at a restart: the one block. -/
theorem run_restart (f : ℕ → M) (n : ℕ) (h : n % 8 = 0) :
    ∑ k ∈ Finset.Ico (8 * (n / 8)) (n + 1), f k = f n := by
  have e : 8 * (n / 8) = n := by omega
  rw [e, Finset.sum_Ico_succ_top le_rfl, Finset.Ico_self, Finset.sum_empty, zero_add]

/-- The same run away from a restart: the run up to the block before, plus this block. -/
theorem run_step (f : ℕ → M) (n : ℕ) (h : n % 8 ≠ 0) :
    ∑ k ∈ Finset.Ico (8 * (n / 8)) (n + 1), f k = (∑ k ∈ Finset.Ico (8 * ((n - 1) / 8)) (n - 1 + 1), f k) + f n := by
  have e : (n - 1) / 8 = n / 8 := by omega
  have e' : n - 1 + 1 = n := by omega
  rw [e, e', Finset.sum_Ico_succ_top (by omega : 8 * (n / 8) ≤ n)]

/-- The first eight blocks and the last eight are all sixteen. -/
theorem two_runs (f : ℕ → M) :
    (∑ k ∈ Finset.Ico 0 8, f k) + (∑ k ∈ Finset.Ico 8 16, f k) = ∑ t : Fin 16, f t.val := by
  rw [Finset.sum_Ico_consecutive f (by omega : 0 ≤ 8) (by omega : 8 ≤ 16), Fin.sum_univ_eq_sum_range, Finset.range_eq_Ico]

end Cert.SumLaw
-- ==== Proof.Accum.lean ====
/-
  The accumulator after each grid point, on the extended reals.

  The sixteen grid points are visited in order; points 0-7 belong to the first core's half of the rows and points
  8-15 to the second's.  The accumulator is reset at the first point of a half (points 0 and 8) and grows by one
  block sum at every point, so after point n it holds the sum of the block sums of the points from the start of
  n's half up to n.  At the last point of a half (points 7 and 15) the output block receives that same number.
-/
import proofs.«158357_j6820408066429_2_alg».proof.Proof.Pieces
import proofs.«158357_j6820408066429_2_alg».proof.Proof.StepValue
import proofs.«158357_j6820408066429_2_alg».proof.Proof.SumLaw

noncomputable section

open Idealize.ShloMosaic Idealize.ShloMosaic.TcCoe Idealize.SL.Sem
open scoped BigOperators

namespace Cert.KernelIdeal.Accum

open Cert.KernelIdeal Cert.KernelIdeal.Gen Cert.KernelIdeal.Pieces Cert.KernelIdeal.StepValue

variable (m : (ℓ : Loc nD τ sig) → Buf (Elt Ideal) ℓ)

/-- The block sum of grid point `k` (zero past the grid, where no point is). -/
def blockAt (c : Dev nD) (k : ℕ) : EReal :=
  if h : k < cfg0.N then blockSum (iblk m c 0 ⟨k, h⟩) (iblk m c 1 ⟨k, h⟩) else 0

/-- First point of a half: the accumulator ends at the point's block sum. -/
theorem step_first (c : Dev nD) (t : Fin cfg0.N) (h0 : t.val % 8 = 0) (h1 : ¬t.val % 8 = 7) (j : S1x1.Idx) :
    (outsAt0 m c t.val t.isLt).2 j = blockSum (iblk m c 0 t) (iblk m c 1 t) := by
  rw [outsAt0_A m c t h0 h1]
  dsimp only
  rw [sout_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)]
  refine (pay2_apply (iblk m c 0 t) (iblk m c 1 t) (k0_pay1 (F := Ideal)) j).trans ?_
  rw [pay1_apply, zero_add]

/-- A middle point: the accumulator grows by the point's block sum. -/
theorem step_middle (c : Dev nD) (t : Fin cfg0.N) (h0 : ¬t.val % 8 = 0) (h1 : ¬t.val % 8 = 7) (j : S1x1.Idx) :
    (outsAt0 m c t.val t.isLt).2 j
      = (outsAt0 m c (t.val - 1) (Nat.lt_of_le_of_lt (Nat.sub_le _ _) t.isLt)).2 j + blockSum (iblk m c 0 t) (iblk m c 1 t) := by
  rw [outsAt0_B m c t h0 h1]
  dsimp only
  rw [sout_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2]
  exact pay2_apply (iblk m c 0 t) (iblk m c 1 t) _ j

/-- The last point of a half: the accumulator grows in the same way, … -/
theorem step_last (c : Dev nD) (t : Fin cfg0.N) (h0 : ¬t.val % 8 = 0) (h1 : t.val % 8 = 7) (j : S1x1.Idx) :
    (outsAt0 m c t.val t.isLt).2 j
      = (outsAt0 m c (t.val - 1) (Nat.lt_of_le_of_lt (Nat.sub_le _ _) t.isLt)).2 j + blockSum (iblk m c 0 t) (iblk m c 1 t) := by
  rw [outsAt0_C m c t h0 h1]
  dsimp only
  rw [sout_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2]
  exact pay2_apply (iblk m c 0 t) (iblk m c 1 t) _ j

/-- … and the output block receives the accumulator's value. -/
theorem out_last (c : Dev nD) (t : Fin cfg0.N) (h0 : ¬t.val % 8 = 0) (h1 : t.val % 8 = 7) (y : S1x1x1.Idx) (j : S1x1.Idx) :
    (outsAt0 m c t.val t.isLt).1 y = (outsAt0 m c t.val t.isLt).2 j := by
  rw [outsAt0_C m c t h0 h1]
  dsimp only
  rw [out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2,
    sout_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2]
  exact pay3_apply _ y j

/-- After point `n` the accumulator holds the block sums from the start of `n`'s half up to `n`. -/
theorem acc_eq (c : Dev nD) : ∀ (n : ℕ) (h : n < cfg0.N) (j : S1x1.Idx),
    (outsAt0 m c n h).2 j = ∑ k ∈ Finset.Ico (8 * (n / 8)) (n + 1), blockAt m c k := by
  intro n
  induction n using Nat.strong_induction_on with
  | _ n ih =>
    intro h j
    have hb : blockAt m c n = blockSum (iblk m c 0 ⟨n, h⟩) (iblk m c 1 ⟨n, h⟩) := dif_pos h
    by_cases h0 : n % 8 = 0
    · rw [SumLaw.run_restart _ n h0, hb]
      exact step_first m c ⟨n, h⟩ h0 (show ¬n % 8 = 7 by omega) j
    · rw [SumLaw.run_step _ n h0, hb,
        ← ih (n - 1) (by omega) (Nat.lt_of_le_of_lt (Nat.sub_le _ _) h) j]
      by_cases h1 : n % 8 = 7
      · exact step_last m c ⟨n, h⟩ h0 h1 j
      · exact step_middle m c ⟨n, h⟩ h0 h1 j

/-- So at the last point of a half the output block holds the sum of that half's eight block sums. -/
theorem out_eq (c : Dev nD) (t : Fin cfg0.N) (h1 : t.val % 8 = 7) (y : S1x1x1.Idx) :
    (outsAt0 m c t.val t.isLt).1 y = ∑ k ∈ Finset.Ico (8 * (t.val / 8)) (t.val + 1), blockAt m c k :=
  (out_last m c t (by omega) h1 y (ValueIdx.ix2 (0 : Fin 1) (0 : Fin 1))).trans (acc_eq m c t.val t.isLt _)

end Cert.KernelIdeal.Accum

end
-- ==== Proof.Output.lean ====
/-
  The kernel's output array after the run.

  The output array has one entry per half of the rows.  Entry h is written back once, after the last grid point of
  half h (point 8h + 7), from the output block, which then holds the sum of that half's eight block sums.  The two
  write-backs cover the array, so after the run entry h is the sum of the block sums of points 8h, …, 8h + 7.
-/
import proofs.«158357_j6820408066429_2_alg».proof.Proof.Accum

noncomputable section

open Idealize.ShloMosaic Idealize.ShloMosaic.TcCoe Idealize.SL.Sem
open Idealize.ShloMosaic.Pipeline (Dat)
open scoped BigOperators

namespace Cert.KernelIdeal.Output

open Cert.KernelIdeal Cert.KernelIdeal.Gen Cert.KernelIdeal.StepValue Cert.KernelIdeal.Accum

variable (m : (ℓ : Loc nD τ sig) → Buf (Elt Ideal) ℓ)

/-- Entry `h` of the output array: the sum of the block sums of half `h`'s eight grid points. -/
def halves (c : Dev nD) : S2x1x1.Idx → EReal :=
  fun i => ∑ k ∈ Finset.Ico (8 * (i 0).val) (8 * (i 0).val + 8), blockAt m c k

/-- The output window's block index at a grid point: the point's half, and zero on the two unit axes. -/
theorem out_idx : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a write-back writes is its block of `halves`. -/
theorem flushed_eq (c : Dev nD) (t : Fin cfg0.N) (hf : (cfg0.win 2).flush t = true) :
    (dats m 0 c).flushed 2 t = ((cfg0.win 2).blk t).view.read (Elt Ideal) (halves m c) := by
  have h7 : t.val % 8 = 7 := (flush0_2 t).mp hf
  show (cfg0.win 2).cut (grid0.coords t) ((dats m 0 c).after 2 t) = _
  rw [after0_2]
  funext y
  rw [View.read_apply]
  show (outsAt0 m c t.val t.isLt).1 y = _
  refine (out_eq m c t h7 y).trans ?_
  obtain ⟨e0, e1, e2⟩ := out_idx t
  have hy : (y 0).val < 1 := (y 0).isLt
  have he : ((((cfg0.win 2).blk t).view.emb y) 0).val = t.val / 8 := by
    show win0_2.index t (0 : Fin 3) * 1 + 1 * (y 0).val = t.val / 8
    omega
  unfold halves
  rw [he, show 8 * (t.val / 8) + 8 = t.val + 1 from by omega]
  rfl

/-- An index of the output array lies in a point's block iff each coordinate lies in the block's range. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Every entry of the output array is written back, by the last point of its half. -/
theorem cover (i : S2x1x1.Idx) :
    ∃ t : Fin cfg0.N, (cfg0.win 2).flush t = true ∧ i ∈ ((cfg0.win 2).blk t).view.set := by
  have hN : cfg0.N = 16 := N_0
  have hi0 : (i 0).val < 2 := (i 0).isLt
  have hi1 : (i 1).val < 1 := (i 1).isLt
  have hi2 : (i 2).val < 1 := (i 2).isLt
  let t : Fin cfg0.N := ⟨8 * (i 0).val + 7, by omega⟩
  have ht : t.val = 8 * (i 0).val + 7 := rfl
  refine ⟨t, (flush0_2 t).mpr (by omega), ?_⟩
  obtain ⟨e0, e1, e2⟩ := out_idx t
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- The output array after the run. -/
theorem final (c : Dev nD) : (dats m 0 c).arrAt 2 cfg0.N = halves m c :=
  (dats m 0 c).arrAt_eq_of_cover 2 (halves m c) (flushed_eq m c) (cover)

end Cert.KernelIdeal.Output

end
-- ==== Proof.Tail.lean ====
/-
  The lines after the kernel's region, and the kernel's result.

  After the region the program takes the output array's two entries, adds them, and divides by the constant
  2^25 (the number of entries of an argument).  So the result is (first half's sum + second half's sum) / 2^25.
-/
import proofs.«158357_j6820408066429_2_alg».proof.Proof.Output
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Tail

open Cert.KernelIdeal Cert.KernelIdeal.Gen Cert.KernelIdeal.Output

variable (m : (ℓ : Loc nD τ sig) → Buf (Elt Ideal) ℓ) (ρ : Dev nD → PrngReg)

/-- The lines after the region, as one function of the output array: (o[0] + o[1]) / 2^25. -/
def tail (o : S2x1x1.Idx → Ideal .f32) : S_.Idx → Ideal .f32 :=
  Host.divf (F := Ideal)
    (addf (shapeCast S_ (extractStridedSlice S1x1x1 ![0, 0, 0] o slices_S2x1x1_S1x1x1_0_0_0) shapeCasts_S1x1x1_S_)
      (shapeCast S_ (extractStridedSlice S1x1x1 ![1, 0, 0] o slices_S2x1x1_S1x1x1_1_0_0) shapeCasts_S1x1x1_S_))
    (constant (F := Ideal) S_ .f32 0x4C000000#32)

/-- One entry of the output array, sliced out and re-shaped to a scalar, is that entry. -/
theorem slice_entry (o : S2x1x1.Idx → Ideal .f32) (h : Fin 2) (off : Fin 3 → Nat) (hoff : off = ![h.val, 0, 0])
    (hs : S2x1x1.Slices off S1x1x1) (i : S_.Idx) :
    shapeCast S_ (extractStridedSlice S1x1x1 off o hs) shapeCasts_S1x1x1_S_ i = o (ix3 h (0 : Fin 1) (0 : Fin 1)) := by
  subst hoff
  unfold shapeCast
  have hj : ∀ b : Fin 3, ((Shape.reshapeEquiv shapeCasts_S1x1x1_S_ i) b).val = 0 := fun b => by
    have hlt := ((Shape.reshapeEquiv shapeCasts_S1x1x1_S_ i) b).isLt
    have h1 : S1x1x1.size b = 1 := by fin_cases b <;> rfl
    omega
  refine extractStridedSlice_apply _ o hs _ _ (fun a => ?_)
  match a with
  | ⟨0, _⟩ => show h.val = h.val + ((Shape.reshapeEquiv shapeCasts_S1x1x1_S_ i) _).val; rw [hj]; exact (Nat.add_zero _).symm
  | ⟨1, _⟩ => show 0 = 0 + ((Shape.reshapeEquiv shapeCasts_S1x1x1_S_ i) _).val; rw [hj]
  | ⟨2, _⟩ => show 0 = 0 + ((Shape.reshapeEquiv shapeCasts_S1x1x1_S_ i) _).val; rw [hj]

/-- The tail at its one index: the two entries' sum over the constant. -/
theorem tail_apply (o : S2x1x1.Idx → Ideal .f32) (i : S_.Idx) :
    tail o i = Ideal.div (o (ix3 (0 : Fin 2) (0 : Fin 1) (0 : Fin 1)) + o (ix3 (1 : Fin 2) (0 : Fin 1) (0 : Fin 1)))
      (Ideal.ofBits .f32 0x4C000000#32) := by
  unfold tail
  show Ideal.div (shapeCast S_ (extractStridedSlice S1x1x1 ![0, 0, 0] o _) _ i
    + shapeCast S_ (extractStridedSlice S1x1x1 ![1, 0, 0] o _) _ i) _ = _
  rw [slice_entry o 0 ![0, 0, 0] rfl, slice_entry o 1 ![1, 0, 0] rfl]
  rfl

/-- The program's result buffer after the run is the tail of the output array the region leaves. -/
theorem tail_eq (c : Dev nD) :
    Pipeline.afterTail₀ cfgs (dats m) 0 (V0 m) [hostOps1] c main_v8 = tail (halves m c) := by
  have e : Pipeline.afterTail₀ cfgs (dats m) 0 (V0 m) [hostOps1] c main_v8
      = tail (Pipeline.withArrays (cfgs 0).spec c (V0 m c) (fun w => (dats m 0 c).arrAt w (cfgs 0).N)
          (Proc.devRef .tc main_v2)) := by
    unfold Pipeline.afterTail₀
    show StableHlo.after hostOps1 _ (Proc.devRef .tc main_v8) = _
    after_results
    rfl
  exact e.trans (congrArg tail ((Pipeline.withArrays_arr spec0 launch0.win.arr_inj c _ _ 2).trans (final m c)))

/-- The kernel's run, read: the result at the tail of the two halves' sums, the arguments unchanged. -/
theorem run : θ_run defs (onTc (τ := τ) (main (F := Ideal))) ⟨m, fun _ => 0, ρ⟩ fun r => ∀ c : Dev nD,
      r.2.mem ((c : Thread nD τ).loc main_v8) = tail (halves m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.Blocks.lean ====
/-
  The sixteen block sums together are the sum over every entry of the arguments.

  The kernel first views each argument, of shape 64 x 128 x 4096, as 8192 rows of 4096 lanes: the same entries in
  the same row-major order.  Grid point t reads rows 512 t, …, 512 t + 511 of that view, all lanes.  So its block
  sum is the sum of |a - b| over those rows; the sixteen blocks are the 8192 rows, each once; and a sum over the
  two-axis view is the sum over the three-axis argument, the view being a re-indexing by a bijection.
-/
import proofs.«158357_j6820408066429_2_alg».proof.Proof.Accum
import Idealize.ShloMosaic.Lib.StableHlo.Run

noncomputable section

open Idealize.ShloMosaic Idealize.ShloMosaic.TcCoe Idealize.SL.Sem Idealize.ShloMosaic.ValueIdx
open scoped BigOperators

namespace Cert.KernelIdeal.Blocks

open Cert.KernelIdeal Cert.KernelIdeal.Gen Cert.KernelIdeal.StepValue Cert.KernelIdeal.Accum

variable (m : (ℓ : Loc nD τ sig) → Buf (Elt Ideal) ℓ)

/-- The first argument as the kernel's region finds it: viewed as 8192 rows of 4096 lanes. -/
theorem rows0_eq (c : Dev nD) : (V m c main_v0 : S8192x4096.Idx → Ideal .f32)
    = shapeCast S8192x4096 (m ((c : Thread nD τ).loc main_arg0)) shapeCasts_S64x128x4096_S8192x4096 := by
  show StableHlo.after hostOps0 (fun b => m (c, b)) (Proc.devRef .tc main_v0) = _
  after_results
  rfl

/-- The second argument likewise. -/
theorem rows1_eq (c : Dev nD) : (V m c main_v1 : S8192x4096.Idx → Ideal .f32)
    = shapeCast S8192x4096 (m ((c : Thread nD τ).loc main_arg1)) shapeCasts_S64x128x4096_S8192x4096 := by
  show StableHlo.after hostOps0 (fun b => m (c, b)) (Proc.devRef .tc main_v1) = _
  after_results
  rfl

/-- |a - b| at an entry of the two-axis view. -/
def dist (c : Dev nD) : S8192x4096.Idx → EReal :=
  fun i => FloatOps.absf (φ := .f32) (F := Ideal) (FloatOps.subf (φ := .f32) (F := Ideal)
    ((V m c main_v0 : S8192x4096.Idx → Ideal .f32) i) ((V m c main_v1 : S8192x4096.Idx → Ideal .f32) i))

/-- Both input windows' block index at grid point `t` is `t` along the rows and 0 along the lanes. -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, l) of point `t`'s block of the first argument is entry (512 t + r, l) of its two-axis view. -/
theorem iblk0_apply (c : Dev nD) (t : Fin cfg0.N) (r : Fin 512) (l : Fin 4096) (p : Fin 8192)
    (hp : p.val = 512 * t.val + r.val) :
    (iblk m c 0 t : FVec Ideal S512x4096 .f32) (ix2 r l) = (V m c main_v0 : S8192x4096.Idx → Ideal .f32) (ix2 p l) := by
  obtain ⟨e0, e1, -, -⟩ := in_idx t
  unfold iblk
  rw [View.read_apply]
  show V m c main_v0 _ = V m c main_v0 _
  congr 1
  funext a
  apply Fin.ext
  match a with
  | ⟨0, _⟩ => show win0_0.index t (0 : Fin 2) * 512 + 1 * r.val = p.val; omega
  | ⟨1, _⟩ => show win0_0.index t (1 : Fin 2) * 4096 + 1 * l.val = l.val; omega

/-- The same for the second argument. -/
theorem iblk1_apply (c : Dev nD) (t : Fin cfg0.N) (r : Fin 512) (l : Fin 4096) (p : Fin 8192)
    (hp : p.val = 512 * t.val + r.val) :
    (iblk m c 1 t : FVec Ideal S512x4096 .f32) (ix2 r l) = (V m c main_v1 : S8192x4096.Idx → Ideal .f32) (ix2 p l) := by
  obtain ⟨-, -, e0, e1⟩ := in_idx t
  unfold iblk
  rw [View.read_apply]
  show V m c main_v1 _ = V m c main_v1 _
  congr 1
  funext a
  apply Fin.ext
  match a with
  | ⟨0, _⟩ => show win0_1.index t (0 : Fin 2) * 512 + 1 * r.val = p.val; omega
  | ⟨1, _⟩ => show win0_1.index t (1 : Fin 2) * 4096 + 1 * l.val = l.val; omega

/-- Point `k`'s block sum is the sum of |a - b| over rows 512 k, …, 512 k + 511 of the two-axis view. -/
theorem blockAt_eq (c : Dev nD) (k : ℕ) (hk : k < 16) :
    blockAt m c k = ∑ r : Fin 512, ∑ l : Fin 4096, dist m c (ix2 (⟨512 * k + r.val, by omega⟩ : Fin 8192) l) := by
  have hk' : k < cfg0.N := lt_of_lt_of_eq hk (show cfg0.N = 16 from N_0).symm
  unfold blockAt
  rw [dif_pos hk']
  unfold blockSum
  rw [sum_idx2]
  refine Finset.sum_congr rfl fun r _ => Finset.sum_congr rfl fun l _ => ?_
  unfold dist
  exact congrArg₂ (fun a b : EReal => FloatOps.absf (φ := .f32) (F := Ideal) (FloatOps.subf (φ := .f32) (F := Ideal) a b))
    (iblk0_apply m c ⟨k, hk'⟩ r l _ rfl) (iblk1_apply m c ⟨k, hk'⟩ r l _ rfl)

/-- All sixteen block sums: the sum of |a - b| over every entry of the arguments. -/
theorem total_eq (c : Dev nD) : ∑ t : Fin 16, blockAt m c t.val
    = ∑ k : S64x128x4096.Idx, FloatOps.absf (φ := .f32) (F := Ideal) (FloatOps.subf (φ := .f32) (F := Ideal)
        (m ((c : Thread nD τ).loc main_arg0) k) (m ((c : Thread nD τ).loc main_arg1) k)) := by
  have e1 : ∀ t : Fin 16, blockAt m c t.val
      = ∑ r : Fin 512, (fun p : Fin 8192 => ∑ l : Fin 4096, dist m c (ix2 p l)) ⟨512 * t.val + r.val, by omega⟩ :=
    fun t => blockAt_eq m c t.val t.isLt
  rw [Finset.sum_congr rfl fun t _ => e1 t,
    ← SumLaw.sum_rows_by_blocks (fun p : Fin 8192 => ∑ l : Fin 4096, dist m c (ix2 p l)), ← sum_idx2 (dist m c)]
  unfold dist
  rw [rows0_eq, rows1_eq]
  unfold shapeCast
  exact Equiv.sum_comp (Shape.reshapeEquiv shapeCasts_S64x128x4096_S8192x4096)
    (fun k => FloatOps.absf (φ := .f32) (F := Ideal) (FloatOps.subf (φ := .f32) (F := Ideal)
      (m ((c : Thread nD τ).loc main_arg0) k) (m ((c : Thread nD τ).loc main_arg1) k)))

end Cert.KernelIdeal.Blocks

end
-- ==== Proof.Joined.lean ====
/-
  The two programs compute one number.

  The reference divides  0 + (sum of |a - b| over every entry of the arguments)  by 2^25.  The kernel divides
  (sum over the first half's eight blocks) + (sum over the second half's eight blocks)  by the same constant.
  The two halves together are all sixteen blocks, the sixteen blocks are all the entries, and the extended real 0
  is neutral for addition: the two numerators are equal, by regrouping one finite sum — which holds at every
  extended-real value of the entries, so no finiteness of the inputs is used.
-/
import proofs.«158357_j6820408066429_2_alg».proof.Proof.Tail
import proofs.«158357_j6820408066429_2_alg».proof.Proof.Blocks
import proofs.«158357_j6820408066429_2_alg».proof.Proof.Gen.ReferenceIdeal.Read

noncomputable section

open Idealize.ShloMosaic Idealize.ShloMosaic.TcCoe Idealize.SL.Sem Idealize.ShloMosaic.ValueIdx
open scoped BigOperators

namespace Cert.Joined

open Cert.KernelIdeal.Accum Cert.KernelIdeal.Output Cert.KernelIdeal.Tail Cert.KernelIdeal.Blocks

variable (m : (ℓ : Loc Cert.KernelIdeal.nD Cert.KernelIdeal.τ Cert.KernelIdeal.sig) → Buf (Elt Ideal) ℓ)

/-- The output array's two entries add up to all sixteen block sums. -/
theorem halves_sum (c : Dev Cert.KernelIdeal.nD) :
    halves m c (ix3 (0 : Fin 2) (0 : Fin 1) (0 : Fin 1)) + halves m c (ix3 (1 : Fin 2) (0 : Fin 1) (0 : Fin 1))
      = ∑ t : Fin 16, blockAt m c t.val := by
  unfold halves
  show (∑ k ∈ Finset.Ico 0 8, blockAt m c k) + (∑ k ∈ Finset.Ico 8 16, blockAt m c k) = _
  exact SumLaw.two_runs (blockAt m c)

/-- The reference's result, of arguments equal to the kernel's, is the kernel's result. -/
theorem result_eq (c : Dev Cert.KernelIdeal.nD)
    (x0 x1 : (⟨Cert.ReferenceIdeal.S64x128x4096, .f32⟩ : BufTy).Contents (Elt Ideal))
    (h0 : x0 = m ((c : Thread Cert.KernelIdeal.nD Cert.KernelIdeal.τ).loc Cert.KernelIdeal.main_arg0))
    (h1 : x1 = m ((c : Thread Cert.KernelIdeal.nD Cert.KernelIdeal.τ).loc Cert.KernelIdeal.main_arg1)) :
    Cert.ReferenceIdeal.Read.val_main_v3 (F := Ideal) x0 x1 = tail (halves m c) := by
  subst h0 h1
  funext i
  rw [Cert.ReferenceIdeal.Read.val_main_v3_apply, Cert.ReferenceIdeal.Read.val_main_v2_apply,
    Cert.ReferenceIdeal.Read.val_main_cst_apply, Cert.ReferenceIdeal.Read.val_main_cst_0_apply, tail_apply, halves_sum,
    total_eq]
  show Ideal.div (Ideal.ofBits .f32 0x00000000#32 + _) _ = Ideal.div _ _
  rw [Ideal.ofBits_zero_f32, zero_add]
  rfl

end Cert.Joined

end
-- ==== Proof.lean ====
/-
  The certificate of the mean absolute difference kernel against `jnp.mean(jnp.abs(yhat - y))`.

  Both programs compute  (sum of |yhat - y| over all 64 x 128 x 4096 entries) / 2^25  on the extended reals.
  The reference takes the sum in one reduction.  The kernel views the arguments as 8192 rows of 4096 lanes and
  walks sixteen blocks of 512 rows, eight per core: at each block it adds the block's sum of |yhat - y| (lanes
  first, then rows) to a one-element accumulator that is reset at the first block of a core and copied to that
  core's output entry at the last; afterwards the two entries are added and divided by 2^25.

  The modules: Pieces (what a grid point leaves, as the body's payloads), StepValue (the payloads on the extended
  reals), Accum (the accumulator after each point, by induction on the point), Output (the output array after the
  run), Tail (the lines after the region; the kernel's run, read), Blocks (the sixteen block sums are the sum over
  every entry), SumLaw (the regroupings of a finite sum used), Joined (the two results are equal).
  The frames of the two kernel programs and the reference's run are the generated ones; the idealization rewrote
  nothing, so that conjunct is trivial; the algebraic conjunct is assembled below.
-/
import proofs.«158357_j6820408066429_2_alg».proof.Defs
import proofs.«158357_j6820408066429_2_alg».proof.Proof.Gen.Kernel
import proofs.«158357_j6820408066429_2_alg».proof.Proof.Gen.Kernel.Skeleton
import proofs.«158357_j6820408066429_2_alg».proof.Proof.Gen.Kernel.Launch
import proofs.«158357_j6820408066429_2_alg».proof.Proof.Gen.Kernel.Points
import proofs.«158357_j6820408066429_2_alg».proof.Proof.Gen.Kernel.Frame
import proofs.«158357_j6820408066429_2_alg».proof.Proof.Gen.KernelIdeal
import proofs.«158357_j6820408066429_2_alg».proof.Proof.Gen.KernelIdeal.Skeleton
import proofs.«158357_j6820408066429_2_alg».proof.Proof.Gen.KernelIdeal.Launch
import proofs.«158357_j6820408066429_2_alg».proof.Proof.Gen.KernelIdeal.Points
import proofs.«158357_j6820408066429_2_alg».proof.Proof.Gen.KernelIdeal.Frame
import proofs.«158357_j6820408066429_2_alg».proof.Proof.Gen.ReferenceIdeal
import proofs.«158357_j6820408066429_2_alg».proof.Proof.Gen.Pre_finite_inputs
import proofs.«158357_j6820408066429_2_alg».proof.Proof.Gen.ReferenceIdeal.Run
import proofs.«158357_j6820408066429_2_alg».proof.Proof.Gen.ReferenceIdeal.Read
import proofs.«158357_j6820408066429_2_alg».proof.Proof.Joined
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at (sum of the sixteen block sums) / 2^25. -/
theorem algebraic : Cert.algebraic_KernelIdeal_ReferenceIdeal := by
  intro m ρ m' ρ' _ hagree
  refine ⟨fun c => Cert.KernelIdeal.Tail.tail (Cert.KernelIdeal.Output.halves m c), Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq]
  exact Cert.Joined.result_eq m c _ _ (hagree c).1 (hagree c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
